-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  reducesTo_S_S_d : S_.ReducesTo [] S_

variable [Facts]

def fn_part1 {F : FTy → Type} [FloatOps F] (main_arg4 : FVec F S_ .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S4x2048x4096 .f32) (main_arg1 : FVec F S4096x4096 .f32) (main_arg2 : FVec F S4096 .f32) (main_arg3 : FVec F S1x4096 .f32) (main_arg4 : FVec F S_ .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S8192x4096 : Shape := ⟨2, ![8192, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 24
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .bf16⟩
  | .hbm, ⟨18, _⟩ => ⟨S4096x4096, .bf16⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S8192x4096, .f32⟩
  | .hbm, ⟨23, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bcast_S_S8192x4096 : S_.BroadcastsInDim S8192x4096 (![] : Fin 0 → Fin S8192x4096.rank)
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v5) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S_, .f32⟩
  | .hbm, ⟨5, _⟩ => ⟨S4x2048x4096, .f32⟩
  | .hbm, ⟨6, _⟩ => ⟨S4x2048x4096, .f32⟩
  | .hbm, ⟨7, _⟩ => ⟨S4x2048x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4096, .f32⟩
  | .hbm, ⟨18, _⟩ => ⟨S4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S1x4096_S1x1x4096_1_2 : S1x4096.BroadcastsInDim S1x1x4096 (![1, 2] : Fin 2 → Fin S1x1x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves in the output block's staging buffer, in each of its three control cases,
  as a value: the body's stores all cover the whole block, so the buffer ends at the last store's payload.

    first step of a contraction run (the accumulator is reset):   the block product added to the zero block;
    a middle step:                                                the block product added to what the step before left;
    the last step:   that sum, then scaled by the column factors and shifted by the column biases.

  The payloads are the body's arithmetic as pure terms (`k0_pay1`: the zero block; `k0_pay2`: accumulator plus block
  product; `k0_pay3`: scale and shift).  The statements hold at every float instance.
-/
import proofs.«160286_j6476810682793_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-block access, however spelt. -/
theorem hz : (![0, 0] : Fin 2 → Nat) = fun _ => 0 := funext fun a => by fin_cases a <;> rfl

/-- A middle step: the staging buffer held `xo4`; it ends at `xo4` plus the product of the two input blocks. -/
theorem out_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (hc0 : ¬cond0_0 i) (hc1 : ¬cond0_1 i)
    (x0 : Vec F S2048x512 .bf16) (x1 : Vec F S1024x512 .bf16) (x2 : Vec F S1x1024 .f32) (x3 : Vec F S1x1024 .f32) (xo4 : Vec F S2048x1024 .f32) :
    out0_B_4 c i arg3 harg3 arg4 harg4 arg5 harg5 arg6 harg6 arg7 harg7 hc0 hc1 x0 x1 x2 x3 xo4 = k0_pay2 x0 x1 xo4 := by
  unfold out0_B_4
  rw [View.read_writes_eq_canon _ _ _ (cover0_B_4 c i arg3 harg3 arg4 harg4 arg5 harg5 arg6 harg6 arg7 harg7 hc0 hc1 x0 x1 x2 x3 xo4)]
  unfold kernelRun0_B
  dsimp only
  rw [View.canon_unit_zero (S := S2048x1024) hz]
  simp only [View.readAt_eq_ld, harg3.read_unread, harg4.read_unread, harg7.read_unread,
    View.ld_unit_zero (S := S2048x512) hz, View.ld_unit_zero (S := S1024x512) hz, View.ld_unit_zero (S := S2048x1024) hz]

/-- The first step: the body stores the zero block, reads it back, and leaves it plus the product of the two input blocks. -/
theorem out_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (hc0 : cond0_0 i) (hc1 : ¬cond0_1 i)
    (x0 : Vec F S2048x512 .bf16) (x1 : Vec F S1024x512 .bf16) (x2 : Vec F S1x1024 .f32) (x3 : Vec F S1x1024 .f32) :
    out0_A_4 c i arg3 harg3 arg4 harg4 arg5 harg5 arg6 harg6 arg7 harg7 hc0 hc1 x0 x1 x2 x3 = k0_pay2 x0 x1 (k0_pay1 (F := F)) := by
  unfold out0_A_4
  rw [View.read_writes_eq_canon _ _ _ (cover0_A_4 c i arg3 harg3 arg4 harg4 arg5 harg5 arg6 harg6 arg7 harg7 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x512) hz, View.ld_unit_zero (S := S1024x512) hz]

/-- The last step: the accumulation of a middle step, read back, then scaled and shifted by the two row blocks. -/
theorem out_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (x3 : Vec F S1x1024 .f32) (xo4 : Vec F S2048x1024 .f32) :
    out0_C_4 c i arg3 harg3 arg4 harg4 arg5 harg5 arg6 harg6 arg7 harg7 hc0 hc1 x0 x1 x2 x3 xo4 = k0_pay3 (k0_pay2 x0 x1 xo4) x2 x3 := by
  unfold out0_C_4
  rw [View.read_writes_eq_canon _ _ _ (cover0_C_4 c i arg3 harg3 arg4 harg4 arg5 harg5 arg6 harg6 arg7 harg7 hc0 hc1 x0 x1 x2 x3 xo4)]
  unfold kernelRun0_C
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread,
    View.ld_unit_zero (S := S2048x512) hz, View.ld_unit_zero (S := S1024x512) hz, View.ld_unit_zero (S := S2048x1024) hz,
    View.ld_unit_zero (S := S1x1024) hz]

end Cert.KernelIdeal.Pieces

end
-- ==== Proof.Payload.lean ====
/-
  The body's three payloads read at one element of the output block, over the extended reals.

    the zero block:                       0 at every (p, q);
    accumulator plus block product:       acc (p, q) + Σ_{d < 512} x (p, d) · w (q, d)
                                          (the product contracts the LAST axis of both blocks: the weights are stored
                                          output-row-major, so no transpose is involved);
    scale and shift:                      acc (p, q) · s (0, q) + b (0, q)
                                          (the two one-row blocks are broadcast along the rows).

  The element type changes in the body are the identity on the extended reals, and the shape casts are casts of a
  shape to itself.
-/
import proofs.«160286_j6476810682793_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The zero block is zero everywhere. -/
theorem pay1_apply (p : Fin 2048) (q : Fin 1024) : k0_pay1 (F := Ideal) (ix2 p q) = 0 :=
  Ideal.ofBits_zero_f32

/-- The block product's dimension numbers: both operands contract their last axis. -/
abbrev D : DotDims S2048x512 S1024x512 S2048x1024 := dot_S2048x512_S1024x512_S2048x1024_1_1_0_0_n_n

theorem lhs_row (j : S2048x1024.Idx) (k : D.contr.Idx) : (D.lhsIdx j k 0).val = (j 0).val := by
  unfold DotDims.lhsIdx
  rw [dif_neg (show ¬(0 : Fin S2048x512.rank) ∈ D.lhsBatch by decide), dif_pos (show (0 : Fin S2048x512.rank) ∈ D.lhsNonContracting by decide)]
  rfl
theorem lhs_col (j : S2048x1024.Idx) (k : D.contr.Idx) : (D.lhsIdx j k 1).val = (k ⟨0, by decide⟩).val :=
  D.lhsIdx_val_of_single rfl j k
theorem rhs_row (j : S2048x1024.Idx) (k : D.contr.Idx) : (D.rhsIdx j k 0).val = (j 1).val := by
  unfold DotDims.rhsIdx
  rw [dif_neg (show ¬(0 : Fin S1024x512.rank) ∈ D.rhsBatch by decide), dif_pos (show (0 : Fin S1024x512.rank) ∈ D.rhsNonContracting by decide)]
  rfl
theorem rhs_col (j : S2048x1024.Idx) (k : D.contr.Idx) : (D.rhsIdx j k 1).val = (k ⟨0, by decide⟩).val :=
  D.rhsIdx_val_of_single rfl j k

/-- The block product into a zero accumulator, at (p, q): row `p` of the first block against row `q` of the second. -/
theorem matmul_apply (x : FVec Ideal S2048x512 .bf16) (w : FVec Ideal S1024x512 .bf16) (p : Fin 2048) (q : Fin 1024) :
    matmul D none x w (constant S2048x1024 .f32 0x00000000#32) (ix2 p q) = ∑ d : Fin 512, x (ix2 p d) * w (ix2 q d) := by
  simp only [matmul]
  rw [Ideal.matmul_constant_zero_apply, ← Equiv.sum_comp (contrEquiv1 D 512 rfl rfl).symm]
  refine Finset.sum_congr rfl fun d _ => ?_
  have hd := contrEquiv1_symm_val D 512 rfl rfl d
  have el : D.lhsIdx (ix2 p q) ((contrEquiv1 D 512 rfl rfl).symm d) = ix2 p d := funext fun a => Fin.ext (by
    match a with
    | ⟨0, _⟩ => exact lhs_row _ _
    | ⟨1, _⟩ => exact (lhs_col _ _).trans hd)
  have er : D.rhsIdx (ix2 p q) ((contrEquiv1 D 512 rfl rfl).symm d) = ix2 q d := funext fun a => Fin.ext (by
    match a with
    | ⟨0, _⟩ => exact rhs_row _ _
    | ⟨1, _⟩ => exact (rhs_col _ _).trans hd)
  rw [el, er]

/-- Accumulator plus block product, at (p, q). -/
theorem pay2_apply (x : Vec Ideal S2048x512 .bf16) (w : Vec Ideal S1024x512 .bf16) (acc : Vec Ideal S2048x1024 .f32)
    (p : Fin 2048) (q : Fin 1024) :
    k0_pay2 (F := Ideal) x w acc (ix2 p q) = acc (ix2 p q) + ∑ d : Fin 512, x (ix2 p d) * w (ix2 q d) := by
  unfold k0_pay2
  rw [addf_apply, shapeCast_self, shapeCast_self, shapeCast_self]
  exact congrArg (acc (ix2 p q) + ·) (matmul_apply x w p q)

/-- Scale and shift, at (p, q). -/
theorem pay3_apply (acc : Vec Ideal S2048x1024 .f32) (s b : Vec Ideal S1x1024 .f32) (p : Fin 2048) (q : Fin 1024) :
    k0_pay3 (F := Ideal) acc s b (ix2 p q) = acc (ix2 p q) * s (ix2 (0 : Fin 1) q) + b (ix2 (0 : Fin 1) q) := by
  unfold k0_pay3
  rw [addf_apply, mulf_apply, shapeCast_self, shapeCast_self, broadcastTo_1b_ab_apply, broadcastTo_1b_ab_apply]

end Cert.KernelIdeal.Payload

end
-- ==== Proof.Spec.lean ====
/-
  The arithmetic shared by the two programs, with no program in sight.

  Both programs compute, for a row `r` of the quantized activations `A` (8192 × 4096) and a row `o` of the
  weights `W` (4096 × 4096), the contraction `Σ_{d < 4096} A r d · W o d`, then scale it by a per-column factor
  and add a per-column bias.  The reference contracts all 4096 terms at once; the kernel visits the contraction
  axis in eight consecutive blocks of 512 terms and adds each block's partial contraction to a running
  accumulator that starts at zero.  Addition on the extended reals is associative and commutative with unit `0`
  (no finiteness is needed for that), so the running accumulator after `k` blocks is the sum of the first
  `512·k` terms, and after the eighth block it is the whole contraction.

  The terms are indexed by a natural number (zero past the extent) so that the partial sums are sums over
  `Finset.range` and a block is appended by `Finset.sum_range_add`.
-/
import Idealize.ShloMosaic.PureOps.Ideal
import Idealize.ShloMosaic.Lib.ValueIdx

noncomputable section

open scoped BigOperators

namespace Cert.Spec

open Idealize.ShloMosaic Idealize.ShloMosaic.ValueIdx

/-- The quantized activations as a matrix of extended reals. -/
abbrev Act := (⟨2, ![8192, 4096]⟩ : Shape).Idx → EReal
/-- The weights as a matrix of extended reals. -/
abbrev Wgt := (⟨2, ![4096, 4096]⟩ : Shape).Idx → EReal

/-- Term `d` of the contraction of row `r` of `A` with row `o` of `W`; zero past the contraction's extent. -/
def term (A : Act) (W : Wgt) (r : Fin 8192) (o : Fin 4096) (d : ℕ) : EReal :=
  if h : d < 4096 then A (ix2 r ⟨d, h⟩) * W (ix2 o ⟨d, h⟩) else 0

/-- The sum of the first `n` terms of that contraction. -/
def psum (A : Act) (W : Wgt) (r : Fin 8192) (o : Fin 4096) (n : ℕ) : EReal :=
  ∑ d ∈ Finset.range n, term A W r o d

theorem psum_zero (A : Act) (W : Wgt) (r : Fin 8192) (o : Fin 4096) : psum A W r o 0 = 0 :=
  Finset.sum_range_zero _

/-- Appending block `k` (terms `512·k … 512·k + 511`): whatever two families `L`, `R` of 512 factors are known to be
    row `r` of `A` and row `o` of `W` at those positions, the partial sum after `k` blocks plus the block's
    contraction is the partial sum after `k + 1` blocks. -/
theorem psum_block (A : Act) (W : Wgt) (r : Fin 8192) (o : Fin 4096) (k : ℕ) (hk : k < 8) (L R : Fin 512 → EReal)
    (hL : ∀ (d : Fin 512) (h : 512 * k + d.val < 4096), L d = A (ix2 r ⟨512 * k + d.val, h⟩))
    (hR : ∀ (d : Fin 512) (h : 512 * k + d.val < 4096), R d = W (ix2 o ⟨512 * k + d.val, h⟩)) :
    psum A W r o (512 * k) + ∑ d : Fin 512, L d * R d = psum A W r o (512 * (k + 1)) := by
  have hb : ∑ d : Fin 512, L d * R d = ∑ x ∈ Finset.range 512, term A W r o (512 * k + x) := by
    rw [Finset.sum_range]
    refine Finset.sum_congr rfl fun d _ => ?_
    have hd : 512 * k + d.val < 4096 := by have := d.isLt; omega
    rw [hL d hd, hR d hd, term, dif_pos hd]
  unfold psum
  rw [hb, Nat.mul_add, Nat.mul_one, Finset.sum_range_add]

/-- The whole contraction, as the reference writes it (one sum over `Fin 4096`), is the partial sum of all 4096 terms. -/
theorem sum_eq_psum (A : Act) (W : Wgt) (r : Fin 8192) (o : Fin 4096) (L R : Fin 4096 → EReal)
    (hL : ∀ d : Fin 4096, L d = A (ix2 r d)) (hR : ∀ d : Fin 4096, R d = W (ix2 o d)) :
    ∑ d : Fin 4096, L d * R d = psum A W r o 4096 := by
  unfold psum
  rw [Finset.sum_range]
  refine Finset.sum_congr rfl fun d _ => ?_
  rw [hL d, hR d, term, dif_pos d.isLt]

/-! ## The quantization of one activation

Both programs quantize an activation `z` with the activation scale `a` the same way: divide, round to the nearest
integer (ties to even), clip to the sixteen-bit range [-32768, 32767].  The two bounds are the f32 words the programs
print; they are never evaluated, only compared. -/

/-- One activation, quantized. -/
def quant (z a : EReal) : EReal :=
  FloatOps.minimumf (F := Ideal) (φ := .f32) (FloatOps.ofBits .f32 0x46FFFE00#32)
    (FloatOps.maximumf (FloatOps.ofBits .f32 0xC7000000#32) (FloatOps.hostUnary .roundeven (FloatOps.hostDivf z a)))

/-- A whole vector quantized by the host's operations (divide, round, the two clips, then the narrowing of the element
    type, which is the identity on the extended reals), read at an index. -/
theorem quant_vec {S : Shape} (hiV loV z a : FVec Ideal S .f32) (h : FTy.bits .bf16 < FTy.bits .f32) (j : S.Idx) :
    (truncf .bf16 (minimumf hiV (maximumf loV (Host.roundeven (Host.divf z a)))) h : FVec Ideal S .bf16) j
      = FloatOps.minimumf (F := Ideal) (φ := .f32) (hiV j) (FloatOps.maximumf (loV j) (FloatOps.hostUnary .roundeven (FloatOps.hostDivf (z j) (a j)))) := rfl

/-! ## The grid's schedule

The kernel's grid has 4 × 4 × 8 = 128 points, visited in row-major order: point `n` is row tile `n / 32`, column tile
`(n / 8) % 4` and contraction block `n % 8`.  The eight points of one (row tile, column tile) pair are consecutive, and
the output block stays in its staging buffer across them. -/

/-- The array row under row `p` of the block at point `n`. -/
def rowOf (n : ℕ) (p : Fin 2048) : Fin 8192 := ⟨2048 * (n / 32 % 4) + p.val, by have := p.isLt; omega⟩
/-- The array column under column `q` of the block at point `n`. -/
def colOf (n : ℕ) (q : Fin 1024) : Fin 4096 := ⟨1024 * (n / 8 % 4) + q.val, by have := q.isLt; omega⟩

theorem rowOf_succ (n : ℕ) (p : Fin 2048) (h : ¬(n + 1) % 8 = 0) : rowOf (n + 1) p = rowOf n p :=
  Fin.ext (by show 2048 * ((n + 1) / 32 % 4) + p.val = 2048 * (n / 32 % 4) + p.val; omega)
theorem colOf_succ (n : ℕ) (q : Fin 1024) (h : ¬(n + 1) % 8 = 0) : colOf (n + 1) q = colOf n q :=
  Fin.ext (by show 1024 * ((n + 1) / 8 % 4) + q.val = 1024 * (n / 8 % 4) + q.val; omega)

/-- The per-column scale and bias rows. -/
abbrev Row := (⟨2, ![1, 4096]⟩ : Shape).Idx → EReal

/-- What the output block's staging buffer holds at (p, q) after point `n`: the partial contraction through block
    `n % 8`, and at the last block of a run the whole contraction scaled and shifted. -/
def acc (A : Act) (W : Wgt) (S B : Row) (n : ℕ) (p : Fin 2048) (q : Fin 1024) : EReal :=
  if n % 8 = 7 then psum A W (rowOf n p) (colOf n q) 4096 * S (ix2 (0 : Fin 1) (colOf n q)) + B (ix2 (0 : Fin 1) (colOf n q))
  else psum A W (rowOf n p) (colOf n q) (512 * (n % 8 + 1))

/-- The result as one function of the four arrays: at (r, o) the contraction of row `r` of `A` with row `o` of `W`,
    times the scale of column `o`, plus the bias of column `o`. -/
def result (A : Act) (W : Wgt) (S B : Row) : (⟨2, ![8192, 4096]⟩ : Shape).Idx → EReal :=
  fun i => psum A W (i 0) (i 1) 4096 * S (ix2 (0 : Fin 1) (i 1)) + B (ix2 (0 : Fin 1) (i 1))

/-- At the last point of a run the staging buffer holds the result's block. -/
theorem acc_last_eq (A : Act) (W : Wgt) (S B : Row) (n : ℕ) (h : n % 8 = 7) (p : Fin 2048) (q : Fin 1024) :
    acc A W S B n p q = result A W S B (ix2 (rowOf n p) (colOf n q)) := by
  unfold acc result
  rw [if_pos h]

/-- The first point of a run: zero plus the first block's contraction. -/
theorem acc_first (A : Act) (W : Wgt) (S B : Row) (n : ℕ) (h : n % 8 = 0) (p : Fin 2048) (q : Fin 1024) (L R : Fin 512 → EReal)
    (hL : ∀ (d : Fin 512) (h : 512 * (n % 8) + d.val < 4096), L d = A (ix2 (rowOf n p) ⟨512 * (n % 8) + d.val, h⟩))
    (hR : ∀ (d : Fin 512) (h : 512 * (n % 8) + d.val < 4096), R d = W (ix2 (colOf n q) ⟨512 * (n % 8) + d.val, h⟩)) :
    (0 : EReal) + ∑ d : Fin 512, L d * R d = acc A W S B n p q := by
  unfold acc
  rw [if_neg (by omega), ← psum_block A W (rowOf n p) (colOf n q) (n % 8) (by omega) L R hL hR, h, Nat.mul_zero, psum_zero]

/-- A middle point of a run: what the point before left plus this block's contraction. -/
theorem acc_mid (A : Act) (W : Wgt) (S B : Row) (n : ℕ) (h0 : ¬(n + 1) % 8 = 0) (h1 : ¬(n + 1) % 8 = 7) (p : Fin 2048) (q : Fin 1024)
    (L R : Fin 512 → EReal)
    (hL : ∀ (d : Fin 512) (h : 512 * ((n + 1) % 8) + d.val < 4096), L d = A (ix2 (rowOf (n + 1) p) ⟨512 * ((n + 1) % 8) + d.val, h⟩))
    (hR : ∀ (d : Fin 512) (h : 512 * ((n + 1) % 8) + d.val < 4096), R d = W (ix2 (colOf (n + 1) q) ⟨512 * ((n + 1) % 8) + d.val, h⟩)) :
    acc A W S B n p q + ∑ d : Fin 512, L d * R d = acc A W S B (n + 1) p q := by
  unfold acc
  rw [if_neg (by omega), if_neg h1, ← rowOf_succ n p h0, ← colOf_succ n q h0,
    show n % 8 + 1 = (n + 1) % 8 by omega]
  exact psum_block A W _ _ ((n + 1) % 8) (by omega) L R hL hR

/-- The last point of a run: that sum is the whole contraction; then the scale and the shift. -/
theorem acc_last (A : Act) (W : Wgt) (S B : Row) (n : ℕ) (h1 : (n + 1) % 8 = 7) (p : Fin 2048) (q : Fin 1024)
    (L R : Fin 512 → EReal) (s b : EReal)
    (hL : ∀ (d : Fin 512) (h : 512 * ((n + 1) % 8) + d.val < 4096), L d = A (ix2 (rowOf (n + 1) p) ⟨512 * ((n + 1) % 8) + d.val, h⟩))
    (hR : ∀ (d : Fin 512) (h : 512 * ((n + 1) % 8) + d.val < 4096), R d = W (ix2 (colOf (n + 1) q) ⟨512 * ((n + 1) % 8) + d.val, h⟩))
    (hs : s = S (ix2 (0 : Fin 1) (colOf (n + 1) q))) (hb : b = B (ix2 (0 : Fin 1) (colOf (n + 1) q))) :
    (acc A W S B n p q + ∑ d : Fin 512, L d * R d) * s + b = acc A W S B (n + 1) p q := by
  have h0 : ¬(n + 1) % 8 = 0 := by omega
  unfold acc
  rw [if_neg (by omega), if_pos h1, ← rowOf_succ n p h0, ← colOf_succ n q h0,
    show n % 8 + 1 = (n + 1) % 8 by omega,
    psum_block A W _ _ ((n + 1) % 8) (by omega) L R hL hR, h1, hs, hb]

end Cert.Spec

end
-- ==== Proof.Blocks.lean ====
/-
  Where each window's block sits at a grid point, and the block read as a piece of its array.

  At point `t` (row tile `t / 32`, column tile `(t / 8) % 4`, contraction block `t % 8`):
    the activations' block is rows `2048·(t / 32) …`, contraction columns `512·(t % 8) …`;
    the weights' block is rows `1024·((t / 8) % 4) …`, contraction columns `512·(t % 8) …`;
    the scale's and the bias's blocks are columns `1024·((t / 8) % 4) …` of their one row;
    the output's block is rows `2048·(t / 32) …`, columns `1024·((t / 8) % 4) …`.
  An element of a block is the array's element at block index × block size + the coordinate inside the block.
-/
import proofs.«160286_j6476810682793_2_alg».proof.Proof.Gen.KernelIdeal.Frame
import proofs.«160286_j6476810682793_2_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Cert.Spec

variable {F : FTy → Type} [FloatOps F]
variable (m : (ℓ : Loc nD τ sig) → Buf (Elt F) ℓ)

/-- The block indices of the five windows at every grid point, decided over the 128 points. -/
theorem idx_facts : ∀ t : Fin cfg0.N,
    win0_0.index t (0 : Fin 2) = t.val / 32 % 4 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = t.val / 32 % 4 ∧ win0_4.index t (1 : Fin 2) = t.val / 8 % 4 :=
  (by decide +kernel : ∀ t : Fin grid0.N, _)

/-- The activations' block at point `t`, at (p, d). -/
theorem iblk0_apply (c : Dev nD) (t : Fin cfg0.N) (p : Fin 2048) (d : Fin 512) (h : 512 * (t.val % 8) + d.val < 4096) :
    (iblk m c 0 t : Vec F S2048x512 .bf16) (ix2 p d) = V m c main_v5 (ix2 (rowOf t.val p) ⟨512 * (t.val % 8) + d.val, h⟩) := by
  obtain ⟨h0, h1, -⟩ := idx_facts t
  unfold iblk
  rw [View.read_apply]
  show V m c main_v5 _ = V m c main_v5 _
  refine congrArg (V m c main_v5) (funext fun a => Fin.ext ?_)
  match a with
  | ⟨0, _⟩ => show win0_0.index t 0 * 2048 + 1 * p.val = 2048 * (t.val / 32 % 4) + p.val; rw [h0]; omega
  | ⟨1, _⟩ => show win0_0.index t 1 * 512 + 1 * d.val = 512 * (t.val % 8) + d.val; rw [h1]; omega

/-- The weights' block at point `t`, at (q, d). -/
theorem iblk1_apply (c : Dev nD) (t : Fin cfg0.N) (q : Fin 1024) (d : Fin 512) (h : 512 * (t.val % 8) + d.val < 4096) :
    (iblk m c 1 t : Vec F S1024x512 .bf16) (ix2 q d) = V m c main_v6 (ix2 (colOf t.val q) ⟨512 * (t.val % 8) + d.val, h⟩) := by
  obtain ⟨-, -, h0, h1, -⟩ := idx_facts t
  unfold iblk
  rw [View.read_apply]
  show V m c main_v6 _ = V m c main_v6 _
  refine congrArg (V m c main_v6) (funext fun a => Fin.ext ?_)
  match a with
  | ⟨0, _⟩ => show win0_1.index t 0 * 1024 + 1 * q.val = 1024 * (t.val / 8 % 4) + q.val; rw [h0]; omega
  | ⟨1, _⟩ => show win0_1.index t 1 * 512 + 1 * d.val = 512 * (t.val % 8) + d.val; rw [h1]; omega

/-- The scale's block at point `t`, at (0, q). -/
theorem iblk2_apply (c : Dev nD) (t : Fin cfg0.N) (q : Fin 1024) :
    (iblk m c 2 t : Vec F S1x1024 .f32) (ix2 (0 : Fin 1) q) = V m c main_v9 (ix2 (0 : Fin 1) (colOf t.val q)) := by
  obtain ⟨-, -, -, -, h0, h1, -⟩ := idx_facts t
  unfold iblk
  rw [View.read_apply]
  show V m c main_v9 _ = V m c main_v9 _
  refine congrArg (V m c main_v9) (funext fun a => Fin.ext ?_)
  match a with
  | ⟨0, _⟩ => show win0_2.index t 0 * 1 + 1 * 0 = 0; rw [h0]
  | ⟨1, _⟩ => show win0_2.index t 1 * 1024 + 1 * q.val = 1024 * (t.val / 8 % 4) + q.val; rw [h1]; omega

/-- The bias's block at point `t`, at (0, q). -/
theorem iblk3_apply (c : Dev nD) (t : Fin cfg0.N) (q : Fin 1024) :
    (iblk m c 3 t : Vec F S1x1024 .f32) (ix2 (0 : Fin 1) q) = V m c main_arg3 (ix2 (0 : Fin 1) (colOf t.val q)) := by
  obtain ⟨-, -, -, -, -, -, h0, h1, -⟩ := idx_facts t
  unfold iblk
  rw [View.read_apply]
  show V m c main_arg3 _ = V m c main_arg3 _
  refine congrArg (V m c main_arg3) (funext fun a => Fin.ext ?_)
  match a with
  | ⟨0, _⟩ => show win0_3.index t 0 * 1 + 1 * 0 = 0; rw [h0]
  | ⟨1, _⟩ => show win0_3.index t 1 * 1024 + 1 * q.val = 1024 * (t.val / 8 % 4) + q.val; rw [h1]; omega

end Cert.KernelIdeal.Blocks

end
-- ==== Proof.Invariant.lean ====
/-
  What the output block's staging buffer holds after each grid point, over the extended reals: by induction on the
  point, it is the partial contraction of the block's rows of the activations with the block's rows of the weights
  through the contraction blocks visited so far, and at the last point of a run of eight the whole contraction,
  scaled by the column factors and shifted by the column biases.

  The step is one of three: the first point of a run starts from the zero block; a middle point adds its block's
  product to what the point before left (the same rows and columns: a run never changes tile); the last point does
  the same and then applies the scale and the shift.
-/
import proofs.«160286_j6476810682793_2_alg».proof.Proof.Pieces
import proofs.«160286_j6476810682793_2_alg».proof.Proof.Payload
import proofs.«160286_j6476810682793_2_alg».proof.Proof.Blocks
import proofs.«160286_j6476810682793_2_alg».proof.Proof.Spec

noncomputable section

open scoped BigOperators
open Idealize.ShloMosaic Idealize.ShloMosaic.TcCoe Idealize.SL.Sem

namespace Cert.KernelIdeal.Invariant

open Cert.KernelIdeal Cert.KernelIdeal.Gen Idealize.ShloMosaic.ValueIdx Cert.Spec

variable (m : (ℓ : Loc nD τ sig) → Buf (Elt Ideal) ℓ)

/-- The staging buffer after the first point of a run, as the body's arithmetic of the point's input blocks. -/
theorem at_first (c : Dev nD) (t : Fin cfg0.N) (h0 : t.val % 8 = 0) (h1 : ¬t.val % 8 = 7) :
    outsAt0 m c t.val t.isLt = k0_pay2 (iblk m c 0 t) (iblk m c 1 t) (k0_pay1 (F := Ideal)) :=
  (outsAt0_A m c t h0 h1).trans
    (Pieces.out_A c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h1 ((hcond0_1 t).mp h)) (iblk m c 0 t) (iblk m c 1 t) (iblk m c 2 t) (iblk m c 3 t))

/-- After a middle point: over what the point before left. -/
theorem at_mid (c : Dev nD) (t : Fin cfg0.N) (h0 : ¬t.val % 8 = 0) (h1 : ¬t.val % 8 = 7) :
    outsAt0 m c t.val t.isLt = k0_pay2 (iblk m c 0 t) (iblk m c 1 t)
      (outsAt0 m c (t.val - 1) (Nat.lt_of_le_of_lt (Nat.sub_le _ _) t.isLt)) :=
  (outsAt0_B m c t h0 h1).trans
    (Pieces.out_B c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)))

/-- After the last point of a run: the same accumulation, then the scale and the shift. -/
theorem at_last (c : Dev nD) (t : Fin cfg0.N) (h0 : ¬t.val % 8 = 0) (h1 : t.val % 8 = 7) :
    outsAt0 m c t.val t.isLt = k0_pay3 (k0_pay2 (iblk m c 0 t) (iblk m c 1 t)
      (outsAt0 m c (t.val - 1) (Nat.lt_of_le_of_lt (Nat.sub_le _ _) t.isLt))) (iblk m c 2 t) (iblk m c 3 t) :=
  (outsAt0_C m c t h0 h1).trans
    (Pieces.out_C c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)))

/-- THE INVARIANT: after point `n` the staging buffer holds, at (p, q), `Spec.acc` of the four arrays the region finds. -/
theorem outsAt_eq (c : Dev nD) : ∀ (n : ℕ) (h : n < cfg0.N) (p : Fin 2048) (q : Fin 1024),
    outsAt0 m c n h (ix2 p q) = acc (V m c main_v5) (V m c main_v6) (V m c main_v9) (V m c main_arg3) n p q
  | 0, h, p, q => by
    refine (congrFun (at_first m c ⟨0, h⟩ rfl (by show ¬(0 : ℕ) % 8 = 7; omega)) (ix2 p q)).trans ?_
    refine (Payload.pay2_apply (iblk m c 0 ⟨0, h⟩) (iblk m c 1 ⟨0, h⟩) (k0_pay1 (F := Ideal)) p q).trans ?_
    rw [Payload.pay1_apply]
    exact acc_first _ _ _ _ 0 rfl p q _ _ (fun d hd => Blocks.iblk0_apply m c ⟨0, h⟩ p d hd)
      (fun d hd => Blocks.iblk1_apply m c ⟨0, h⟩ q d hd)
  | n + 1, h, p, q => by
    by_cases h0 : (n + 1) % 8 = 0
    · have h1 : ¬(n + 1) % 8 = 7 := by omega
      refine (congrFun (at_first m c ⟨n + 1, h⟩ h0 h1) (ix2 p q)).trans ?_
      refine (Payload.pay2_apply (iblk m c 0 ⟨n + 1, h⟩) (iblk m c 1 ⟨n + 1, h⟩) (k0_pay1 (F := Ideal)) p q).trans ?_
      rw [Payload.pay1_apply]
      exact acc_first _ _ _ _ (n + 1) h0 p q _ _ (fun d hd => Blocks.iblk0_apply m c ⟨n + 1, h⟩ p d hd)
        (fun d hd => Blocks.iblk1_apply m c ⟨n + 1, h⟩ q d hd)
    · by_cases h1 : (n + 1) % 8 = 7
      · refine (congrFun (at_last m c ⟨n + 1, h⟩ h0 h1) (ix2 p q)).trans ?_
        refine (Payload.pay3_apply _ (iblk m c 2 ⟨n + 1, h⟩) (iblk m c 3 ⟨n + 1, h⟩) p q).trans ?_
        refine (congrArg (· * (iblk m c 2 ⟨n + 1, h⟩ : Vec Ideal S1x1024 .f32) (ix2 (0 : Fin 1) q)
            + (iblk m c 3 ⟨n + 1, h⟩ : Vec Ideal S1x1024 .f32) (ix2 (0 : Fin 1) q))
          (Payload.pay2_apply (iblk m c 0 ⟨n + 1, h⟩) (iblk m c 1 ⟨n + 1, h⟩) _ p q)).trans ?_
        show (outsAt0 m c n _ (ix2 p q) + _) * _ + _ = _
        rw [outsAt_eq c n _ p q]
        exact acc_last _ _ _ _ n h1 p q _ _ _ _ (fun d hd => Blocks.iblk0_apply m c ⟨n + 1, h⟩ p d hd)
          (fun d hd => Blocks.iblk1_apply m c ⟨n + 1, h⟩ q d hd) (Blocks.iblk2_apply m c ⟨n + 1, h⟩ q)
          (Blocks.iblk3_apply m c ⟨n + 1, h⟩ q)
      · refine (congrFun (at_mid m c ⟨n + 1, h⟩ h0 h1) (ix2 p q)).trans ?_
        refine (Payload.pay2_apply (iblk m c 0 ⟨n + 1, h⟩) (iblk m c 1 ⟨n + 1, h⟩) _ p q).trans ?_
        show outsAt0 m c n _ (ix2 p q) + _ = _
        rw [outsAt_eq c n _ p q]
        exact acc_mid _ _ _ _ n h0 h1 p q _ _ (fun d hd => Blocks.iblk0_apply m c ⟨n + 1, h⟩ p d hd)
          (fun d hd => Blocks.iblk1_apply m c ⟨n + 1, h⟩ q d hd)

end Cert.KernelIdeal.Invariant

end
-- ==== Proof.Final.lean ====
/-
  The kernel's result array after the run, and the program's result after the reshape that follows the region.

  The output's block is written back at the last point of each run of eight (the points ≡ 7 mod 8), when the staging
  buffer holds the result's block (the invariant at such a point).  The sixteen output blocks tile the 8192 × 4096
  array: the element (r, o) lies in the block written back at point 32·(r / 2048) + 8·(o / 1024) + 7.  So the array
  ends at `Spec.result` of the four arrays the region finds, and the program's result is its reshape to 4 × 2048 × 4096.
-/
import proofs.«160286_j6476810682793_2_alg».proof.Proof.Invariant

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Spec

variable (m : (ℓ : Loc nD τ sig) → Buf (Elt Ideal) ℓ) (ρ : Dev nD → PrngReg)

/-- The two-dimensional result, of the four arrays as the region finds them. -/
abbrev res (c : Dev nD) : (⟨2, ![8192, 4096]⟩ : Shape).Idx → EReal :=
  result (V m c main_v5) (V m c main_v6) (V m c main_v9) (V m c main_arg3)

/-- What a write-back point writes back is its block of the result. -/
theorem flushed_eq (c : Dev nD) (t : Fin cfg0.N) (hf : (cfg0.win 4).flush t = true) :
    (dats m 0 c).flushed 4 t = ((cfg0.win 4).blk t).view.read (Elt Ideal) (res m c) := by
  have h7 : t.val % 8 = 7 := (flush0_4 t).mp hf
  obtain ⟨-, -, -, -, -, -, -, -, e0, e1⟩ := Blocks.idx_facts t
  show (cfg0.win 4).cut (grid0.coords t) ((dats m 0 c).after 4 t) = _
  rw [after0_4]
  funext j
  obtain ⟨p, q, rfl⟩ : ∃ (p : Fin 2048) (q : Fin 1024), j = ix2 p q := ⟨j 0, j 1, eq_ix2 j⟩
  rw [View.read_apply]
  show outsAt0 m c t.val t.isLt (ix2 p q) = res m c (((cfg0.win 4).blk t).view.emb (ix2 p q))
  rw [Invariant.outsAt_eq m c t.val t.isLt p q, acc_last_eq _ _ _ _ _ h7]
  refine congrArg (res m c) (funext fun a => Fin.ext ?_)
  match a with
  | ⟨0, _⟩ => show 2048 * (t.val / 32 % 4) + p.val = win0_4.index t 0 * 2048 + 1 * p.val; rw [e0]; omega
  | ⟨1, _⟩ => show 1024 * (t.val / 8 % 4) + q.val = win0_4.index t 1 * 1024 + 1 * q.val; rw [e1]; omega

/-- An index of the array is in point `t`'s output block iff each coordinate is in the block's range. -/
theorem mem_blk (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v10).slice (win0_4.rect t)).set ↔ _
  rw [View.set_slice_whole, Rect.mem_set_unit]
  exact Iff.rfl

/-- Every element of the array is in the block some write-back point writes. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 32 * ((i 0).val / 2048) + 8 * ((i 1).val / 1024) + 7 :=
    ⟨⟨32 * ((i 0).val / 2048) + 8 * ((i 1).val / 1024) + 7, by omega⟩, rfl⟩
  obtain ⟨-, -, -, -, -, -, -, -, e0, e1⟩ := Blocks.idx_facts t
  refine ⟨t, (flush0_4 t).mpr (by omega), ?_⟩
  rw [mem_blk]
  intro a
  match a with
  | ⟨0, _⟩ =>
    show win0_4.index t 0 * 2048 ≤ (i 0).val ∧ (i 0).val < win0_4.index t 0 * 2048 + 2048
    rw [e0]; omega
  | ⟨1, _⟩ =>
    show win0_4.index t 1 * 1024 ≤ (i 1).val ∧ (i 1).val < win0_4.index t 1 * 1024 + 1024
    rw [e1]; omega

/-- So the result array ends at the result. -/
theorem final (c : Dev nD) : (dats m 0 c).arrAt 4 cfg0.N = res m c :=
  (dats m 0 c).arrAt_eq_of_cover 4 (res m c) (flushed_eq m c) cover

/-- The reshape after the region reads the result array the region left. -/
theorem tail_eq (c : Dev nD) :
    Pipeline.afterTail₀ cfgs (dats m) 0 (V0 m) [hostOps1] c main_v11
      = shapeCast S4x2048x4096 (res m c) shapeCasts_S8192x4096_S4x2048x4096 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = res m c := (Pipeline.withArrays_arr spec0 launch0.win.arr_inj c _ _ 4).trans (final m c)
  rw [e]
  rfl

/-- THE KERNEL'S RUN, READ: every weakly fair execution terminates with the program's result at the reshape of the
    result (of the four arrays the region finds), and the five arguments unchanged. -/
theorem run : θ_run defs (onTc (τ := τ) (main (F := Ideal))) ⟨m, fun _ => 0, ρ⟩ fun r => ∀ c : Dev nD,
      r.2.mem ((c.tc : Thread nD τ).loc main_v11) = shapeCast S4x2048x4096 (res m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v11 (Pipeline.mem_restRefs_of main_v11 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Final

end
-- ==== Proof.Prefix.lean ====
/-
  The four arrays the kernel's region finds, as functions of the program's arguments.

  Before the region the host quantizes the activations (after flattening the 4 × 2048 × 4096 input to 8192 × 4096:
  row `2048·b + s` is `(b, s)`), narrows the weights' element type (the identity on the extended reals), and forms the
  per-column scale `activation_scale · scale[o]` as a one-row matrix.  The bias is passed as it is.
-/
import proofs.«160286_j6476810682793_2_alg».proof.Proof.Gen.KernelIdeal.Frame
import proofs.«160286_j6476810682793_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.Prefix

open Cert.KernelIdeal Cert.KernelIdeal.Gen Idealize.ShloMosaic.ValueIdx Cert.Spec

variable (m : (ℓ : Loc nD τ sig) → Buf (Elt Ideal) ℓ)

/-- The five arguments as launched, as arrays of extended reals. -/
abbrev a0 (c : Dev nD) : S4x2048x4096.Idx → EReal := m ((c : Thread nD τ).loc main_arg0)
abbrev a1 (c : Dev nD) : S4096x4096.Idx → EReal := m ((c : Thread nD τ).loc main_arg1)
abbrev a2 (c : Dev nD) : S4096.Idx → EReal := m ((c : Thread nD τ).loc main_arg2)
abbrev a3 (c : Dev nD) : S1x4096.Idx → EReal := m ((c : Thread nD τ).loc main_arg3)
abbrev a4 (c : Dev nD) : S_.Idx → EReal := m ((c : Thread nD τ).loc main_arg4)

/-- The quantized activations, as the host operations before the region compose. -/
theorem V_act (c : Dev nD) : (V m c main_v5 : S8192x4096.Idx → EReal) =
    truncf .bf16 (minimumf (broadcastInDim S8192x4096 ![] bcast_S_S8192x4096 (constant (F := Ideal) S_ .f32 0x46FFFE00#32))
      (maximumf (broadcastInDim S8192x4096 ![] bcast_S_S8192x4096 (constant (F := Ideal) S_ .f32 0xC7000000#32))
        (Host.roundeven (Host.divf (F := Ideal)
          (shapeCast S8192x4096 (a0 m c) shapeCasts_S4x2048x4096_S8192x4096)
          (broadcastInDim S8192x4096 ![] bcast_S_S8192x4096 (a4 m c)))))) bitsLt_bf16_f32 := by
  dsimp only [V, V0]
  simp only [hostOps0, hostOps0_1, hostOps0_2, hostOps0_3, hostOps0_4, List.flatten_cons, List.flatten_nil, List.append_nil,
    List.cons_append, List.nil_append]
  after_results <;> rfl

/-- The weights with their element type narrowed. -/
theorem V_wgt (c : Dev nD) : (V m c main_v6 : S4096x4096.Idx → EReal) =
    (truncf .bf16 (a1 m c : FVec Ideal S4096x4096 .f32) bitsLt_bf16_f32 : FVec Ideal S4096x4096 .bf16) := by
  dsimp only [V, V0]
  simp only [hostOps0, hostOps0_1, hostOps0_2, hostOps0_3, hostOps0_4, List.flatten_cons, List.flatten_nil, List.append_nil,
    List.cons_append, List.nil_append]
  after_results <;> rfl

/-- The per-column scale as a one-row matrix. -/
theorem V_scale (c : Dev nD) : (V m c main_v9 : S1x4096.Idx → EReal) =
    shapeCast S1x4096 (mulf (F := Ideal) (φ := .f32) (broadcastInDim S4096 ![] bcast_S_S4096 (a4 m c)) (a2 m c))
      shapeCasts_S4096_S1x4096 := by
  dsimp only [V, V0]
  simp only [hostOps0, hostOps0_1, hostOps0_2, hostOps0_3, hostOps0_4, List.flatten_cons, List.flatten_nil, List.append_nil,
    List.cons_append, List.nil_append]
  after_results <;> rfl

/-- A quantized activation: row `2048·b + s` of the flattened input is row `(b, s)` of the input. -/
theorem act_apply (c : Dev nD) (b : Fin 4) (s : Fin 2048) (k : Fin 4096) (r : Fin 8192) (hr : r.val = 2048 * b.val + s.val) :
    V m c main_v5 (ix2 r k)
      = quant (a0 m c (ix3 b s k)) (a4 m c ix0) := by
  refine (congrFun (V_act m c) (ix2 r k)).trans ?_
  refine (quant_vec _ _ _ _ _ _).trans ?_
  have e1 : broadcastInDim S8192x4096 ![] bcast_S_S8192x4096 (a4 m c) (ix2 r k) = a4 m c ix0 :=
    broadcastInDim_apply _ bcast_S_S8192x4096 _ (ix2 r k) ix0 (fun a => a.elim0)
  have e2 : shapeCast S8192x4096 (a0 m c) shapeCasts_S4x2048x4096_S8192x4096 (ix2 r k) = a0 m c (ix3 b s k) :=
    shapeCast_apply _ shapeCasts_S4x2048x4096_S8192x4096 (ix2 r k) (ix3 b s k) (by
      rw [Shape.rowMajor_val_three, Shape.rowMajor_val_two]
      show (b.val * 2048 + s.val) * 4096 + k.val = r.val * 4096 + k.val
      rw [hr]; omega)
  have e3 : broadcastInDim S8192x4096 ![] bcast_S_S8192x4096 (constant (F := Ideal) S_ .f32 0x46FFFE00#32) (ix2 r k)
      = FloatOps.ofBits (F := Ideal) .f32 0x46FFFE00#32 :=
    broadcastInDim_apply _ bcast_S_S8192x4096 _ (ix2 r k) ix0 (fun a => a.elim0)
  have e4 : broadcastInDim S8192x4096 ![] bcast_S_S8192x4096 (constant (F := Ideal) S_ .f32 0xC7000000#32) (ix2 r k)
      = FloatOps.ofBits (F := Ideal) .f32 0xC7000000#32 :=
    broadcastInDim_apply _ bcast_S_S8192x4096 _ (ix2 r k) ix0 (fun a => a.elim0)
  rw [e1, e2, e3, e4]
  rfl

/-- A weight. -/
theorem wgt_apply (c : Dev nD) (o k : Fin 4096) :
    V m c main_v6 (ix2 o k) = a1 m c (ix2 o k) :=
  congrFun (V_wgt m c) (ix2 o k)

/-- A column's scale: the activation scale times the column's dequantization scale. -/
theorem scale_apply (c : Dev nD) (o : Fin 4096) :
    V m c main_v9 (ix2 (0 : Fin 1) o) = a4 m c ix0 * a2 m c (ix1 o) := by
  refine (congrFun (V_scale m c) (ix2 (0 : Fin 1) o)).trans ?_
  rw [shapeCast_a_1a_apply, mulf_apply]
  exact congrArg (· * a2 m c (ix1 o)) (broadcastInDim_apply _ bcast_S_S4096 (a4 m c) (ix1 o) ix0 (fun a => a.elim0))

/-- A column's bias: the region finds the bias argument as launched. -/
theorem bias_apply (c : Dev nD) (o : Fin 4096) :
    V m c main_arg3 (ix2 (0 : Fin 1) o) = a3 m c (ix2 (0 : Fin 1) o) :=
  congrFun (V_main_arg3 m c) (ix2 (0 : Fin 1) o)

end Cert.KernelIdeal.Prefix

end
-- ==== Proof.Bridge.lean ====
/-
  The reference's result, read at an index (b, s, o), is the same function of four arrays as the kernel's:
  the contraction over `d` of the quantized activation `(b, s, d)` with the weight `(o, d)`, times
  `activation_scale · scale[o]`, plus `bias[0, o]`.

  The reference computes this on the 4 × 2048 × 4096 input directly; its `dot_general` contracts all 4096 terms in one
  sum, which is the sum of the first 4096 terms of `Spec.term`.
-/
import proofs.«160286_j6476810682793_2_alg».proof.Proof.Gen.ReferenceIdeal.Read
import proofs.«160286_j6476810682793_2_alg».proof.Proof.Spec

noncomputable section

open scoped BigOperators
open Idealize.ShloMosaic

namespace Cert.ReferenceIdeal.Bridge

open Cert.ReferenceIdeal Cert.ReferenceIdeal.Read Idealize.ShloMosaic.ValueIdx Cert.Spec

/-- The reference's quantized activation at an index. -/
theorem ref_quant (x0 : S4x2048x4096.Idx → EReal) (x4 : S_.Idx → EReal) (j : S4x2048x4096.Idx) :
    val_main_v3 (F := Ideal) x0 x4 j = quant (x0 j) (x4 ix0) := by
  rw [val_main_v3_apply, val_main_call1_v4_apply, val_main_call1_v3_apply, val_main_cst_0_apply,
    val_main_call1_v2_apply, val_main_call1_v1_apply, val_main_call1_v0_apply, val_main_cst_apply,
    val_main_v2_apply, val_main_v1_apply, val_main_v0_apply]
  rfl

/-- The operand indices of the reference's contraction at (b, s, o) and term `k`. -/
theorem lidx_eq (b : Fin 4) (s : Fin 2048) (o k : Fin 4096) : lidx_main_v4 (ix3 b s o) k = ix3 b s k :=
  funext fun a => Fin.ext (by match a with | ⟨0, _⟩ => rfl | ⟨1, _⟩ => rfl | ⟨2, _⟩ => rfl)
theorem ridx_eq (b : Fin 4) (s : Fin 2048) (o k : Fin 4096) : ridx_main_v4 (ix3 b s o) k = ix2 o k :=
  funext fun a => Fin.ext (by match a with | ⟨0, _⟩ => rfl | ⟨1, _⟩ => rfl)
/-- The column of the scale and of the bias read at (b, s, o). -/
theorem sidx_eq (b : Fin 4) (s : Fin 2048) (o : Fin 4096) : idx_main_v7 (idx_main_v8 (ix3 b s o)) = ix1 o :=
  funext fun a => Fin.ext (by match a with | ⟨0, _⟩ => rfl)
theorem bidx_eq (b : Fin 4) (s : Fin 2048) (o : Fin 4096) : idx_main_v10 (idx_main_v11 (ix3 b s o)) = ix2 (0 : Fin 1) o :=
  funext fun a => Fin.ext (by match a with | ⟨0, _⟩ => rfl | ⟨1, _⟩ => rfl)

/-- THE REFERENCE IS THE RESULT: for any four arrays that read, at row `r` and column `o`, as the quantized
    activations of `(b, s)`, the weights of row `o`, the scale and the bias of column `o`. -/
theorem ref_apply (x0 : S4x2048x4096.Idx → EReal) (x1 : S4096x4096.Idx → EReal) (x2 : S4096.Idx → EReal)
    (x3 : S1x4096.Idx → EReal) (x4 : S_.Idx → EReal) (b : Fin 4) (s : Fin 2048) (o : Fin 4096) (r : Fin 8192)
    (A : Act) (W : Wgt) (S B : Row)
    (hA : ∀ k : Fin 4096, A (ix2 r k) = quant (x0 (ix3 b s k)) (x4 ix0))
    (hW : ∀ k : Fin 4096, W (ix2 o k) = x1 (ix2 o k))
    (hS : S (ix2 (0 : Fin 1) o) = x4 ix0 * x2 (ix1 o)) (hB : B (ix2 (0 : Fin 1) o) = x3 (ix2 (0 : Fin 1) o)) :
    val_main_v12 (F := Ideal) x0 x1 x2 x3 x4 (ix3 b s o) = result A W S B (ix2 r o) := by
  have hsum : ∑ k : Fin 4096, val_main_v3 (F := Ideal) x0 x4 (lidx_main_v4 (ix3 b s o) k) * x1 (ridx_main_v4 (ix3 b s o) k)
      = psum A W r o 4096 :=
    sum_eq_psum A W r o _ _ (fun k => by rw [ref_quant, lidx_eq, hA]) (fun k => by rw [ridx_eq, hW])
  rw [val_main_v12_apply, val_main_v9_apply, val_main_v4_apply, val_main_v8_apply, val_main_v7_apply, val_main_v6_apply,
    val_main_v5_apply, val_main_v11_apply, val_main_v10_apply, hsum, sidx_eq, bidx_eq]
  show psum A W r o 4096 * (x4 _ * x2 (ix1 o)) + x3 (ix2 (0 : Fin 1) o) = psum A W r o 4096 * S (ix2 (0 : Fin 1) o) + B (ix2 (0 : Fin 1) o)
  rw [hS, hB]

end Cert.ReferenceIdeal.Bridge

end
-- ==== Proof.Equal.lean ====
/-
  The kernel's result equals the reference's, element by element.

  The program's result at (b, s, o) is the two-dimensional result at row `2048·b + s`, column `o` (the reshape after the
  region keeps the row-major position).  There the four arrays the region finds read as the quantized activation
  row `(b, s)`, the weight row `o`, `activation_scale · scale[o]` and `bias[0, o]`: what the reference's result is made of.
-/
import proofs.«160286_j6476810682793_2_alg».proof.Proof.Final
import proofs.«160286_j6476810682793_2_alg».proof.Proof.Prefix
import proofs.«160286_j6476810682793_2_alg».proof.Proof.Bridge

noncomputable section

open Idealize.ShloMosaic Idealize.ShloMosaic.TcCoe Idealize.SL.Sem

namespace Cert.KernelIdeal.Equal

open Cert.KernelIdeal Cert.KernelIdeal.Gen Idealize.ShloMosaic.ValueIdx Cert.Spec

variable (m : (ℓ : Loc nD τ sig) → Buf (Elt Ideal) ℓ)

/-- The reshaped result is the reference's value of the arguments as launched. -/
theorem result_eq (c : Dev nD) :
    shapeCast S4x2048x4096 (Final.res m c) shapeCasts_S8192x4096_S4x2048x4096
      = Cert.ReferenceIdeal.Read.val_main_v12 (F := Ideal) (Prefix.a0 m c) (Prefix.a1 m c) (Prefix.a2 m c) (Prefix.a3 m c)
          (Prefix.a4 m c) := by
  funext i
  obtain ⟨b, s, o, rfl⟩ : ∃ (b : Fin 4) (s : Fin 2048) (o : Fin 4096), i = ix3 b s o := ⟨i 0, i 1, i 2, eq_ix3 i⟩
  have hr : 2048 * b.val + s.val < 8192 := by have := b.isLt; have := s.isLt; omega
  rw [shapeCast_apply (Final.res m c) shapeCasts_S8192x4096_S4x2048x4096 (ix3 b s o) (ix2 ⟨2048 * b.val + s.val, hr⟩ o) (by
      rw [Shape.rowMajor_val_two, Shape.rowMajor_val_three]
      show (2048 * b.val + s.val) * 4096 + o.val = (b.val * 2048 + s.val) * 4096 + o.val
      omega)]
  exact (Cert.ReferenceIdeal.Bridge.ref_apply (Prefix.a0 m c) (Prefix.a1 m c) (Prefix.a2 m c) (Prefix.a3 m c) (Prefix.a4 m c)
    b s o ⟨2048 * b.val + s.val, hr⟩ (V m c main_v5) (V m c main_v6) (V m c main_v9) (V m c main_arg3)
    (fun k => Prefix.act_apply m c b s k _ rfl) (fun k => Prefix.wgt_apply m c o k) (Prefix.scale_apply m c o)
    (Prefix.bias_apply m c o)).symm

end Cert.KernelIdeal.Equal

end
-- ==== Proof.lean ====
/-
  The certificate of the quantized linear layer: an int16-range quantization of the activations, a contraction with
  the weights, a per-column scale and a bias — the kernel against its jnp reference, over the extended reals.

  Both programs compute, for the input row (b, s) and the output column o,

      ( Σ_{d < 4096} clip(round(x[b,s,d] / a)) · w[o,d] ) · (a · scale[o]) + bias[0,o].

  The reference contracts the 4096 terms in one sum on the 4 × 2048 × 4096 input.  The kernel flattens the input to
  8192 × 4096, quantizes it on the host, and visits a 4 × 4 × 8 grid: for each of the 16 output tiles of 2048 × 1024 it
  accumulates eight block products (512 terms of the contraction each) into the output's staging buffer, starting
  from zero, and applies the scale and the bias at the eighth; the result is reshaped back.  The changes of element
  type on the way are the identity on the extended reals, and the sums differ only in grouping: addition of extended
  reals is associative and commutative, so no finiteness is needed and the precondition is not opened.

  The pieces: `Spec` (the arithmetic, no program), `Pieces` / `Payload` (one body run as a value, read at an element),
  `Blocks` (where the windows' blocks sit), `Invariant` (the staging buffer after every grid point, by induction),
  `Final` (the result array and the program's run), `Prefix` (the arrays the host hands the region), `Bridge` (the
  reference at an element) and `Equal` (the two results are one function of the arguments).  The three frames are
  the generated ones; the idealization rewrote nothing.
-/
import proofs.«160286_j6476810682793_2_alg».proof.Defs
import proofs.«160286_j6476810682793_2_alg».proof.Proof.Gen.Kernel
import proofs.«160286_j6476810682793_2_alg».proof.Proof.Gen.Kernel.Skeleton
import proofs.«160286_j6476810682793_2_alg».proof.Proof.Gen.Kernel.Launch
import proofs.«160286_j6476810682793_2_alg».proof.Proof.Gen.Kernel.Points
import proofs.«160286_j6476810682793_2_alg».proof.Proof.Gen.Kernel.Frame
import proofs.«160286_j6476810682793_2_alg».proof.Proof.Gen.KernelIdeal
import proofs.«160286_j6476810682793_2_alg».proof.Proof.Gen.KernelIdeal.Skeleton
import proofs.«160286_j6476810682793_2_alg».proof.Proof.Gen.KernelIdeal.Launch
import proofs.«160286_j6476810682793_2_alg».proof.Proof.Gen.KernelIdeal.Points
import proofs.«160286_j6476810682793_2_alg».proof.Proof.Gen.KernelIdeal.Frame
import proofs.«160286_j6476810682793_2_alg».proof.Proof.Gen.ReferenceIdeal
import proofs.«160286_j6476810682793_2_alg».proof.Proof.Gen.Pre_finite_inputs
import proofs.«160286_j6476810682793_2_alg».proof.Proof.Gen.ReferenceIdeal.Run
import proofs.«160286_j6476810682793_2_alg».proof.Proof.Gen.ReferenceIdeal.Read
import proofs.«160286_j6476810682793_2_alg».proof.Proof.Equal
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's program ends at the reshaped result of the arrays its host part prepares, the
    reference at its own composed term, of arguments that agree: one function of the arguments (`Equal.result_eq`). -/
theorem algebraic : Cert.algebraic_KernelIdeal_ReferenceIdeal := by
  intro m ρ m' ρ' _ hagree
  refine ⟨fun c => Idealize.ShloMosaic.shapeCast Cert.KernelIdeal.S4x2048x4096 (Cert.KernelIdeal.Final.res m c)
    Cert.KernelIdeal.Facts₀.shapeCasts_S8192x4096_S4x2048x4096, Cert.KernelIdeal.Final.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v12_eq _ _ _ _ _)).trans ?_
  rw [(hagree c).1, (hagree c).2.1, (hagree c).2.2.1, (hagree c).2.2.2.1, (hagree c).2.2.2.2]
  exact (Cert.KernelIdeal.Equal.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
